-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S1000000x64 : Shape := ⟨2, ![1000000, 64]⟩
abbrev S1000x64 : Shape := ⟨2, ![1000, 64]⟩
abbrev S1000x64x64 : Shape := ⟨3, ![1000, 64, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S1000x64x64 : S_.BroadcastsInDim S1000x64x64 (![] : Fin 0 → Fin S1000x64x64.rank)
  reducesTo_S1000x64x64_S_d0_1_2 : S1000x64x64.ReducesTo [0, 1, 2] S_

variable [Facts]

def fn {F : FTy → Type} [FloatOps F] (main_arg0 : IVec S8192x3 32) (main_arg1 : FVec F S1000000x64 .f32) (main_arg2 : FVec F S1000x64 .f32) (main_arg3 : FVec F S1000x64x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000x64 .f32 := Host.absf main_arg2
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S1000x64x64 .f32 := Host.absf main_arg3
  let main_cst_2 : FVec F S_ .f32 := constant S_ .f32 0x7F800000#32
  let main_v10 : FVec F S1000x64x64 .f32 := broadcastInDim S1000x64x64 ![] bcast_S_S1000x64x64 main_cst_2
  let main_v11 : IVec S1000x64x64 1 := cmpf .olt main_v9 main_v10
  let main_c_3 : IVec S_ 1 := constantI S_ 1 1#1
  let main_v12 : IVec S_ 1 := (fun x v => Host.reduce IntOp.andi x v reducesTo_S1000x64x64_S_d0_1_2 h_S_) main_v11 main_c_3
  let main_v13 : IVec S_ 1 := andi main_v8 main_v12
  main_v13
-- ==== Kernel.lean ====
abbrev S8192x3 : Shape := ⟨2, ![8192, 3]⟩
abbrev S1000000x64 : Shape := ⟨2, ![1000000, 64]⟩
abbrev S1000x64 : Shape := ⟨2, ![1000, 64]⟩
abbrev S1000x64x64 : Shape := ⟨3, ![1000, 64, 64]⟩
abbrev S8192x1 : Shape := ⟨2, ![8192, 1]⟩
abbrev S8192 : Shape := ⟨1, ![8192]⟩
abbrev S_ : Shape := ⟨0, ![]⟩
abbrev S8192x64 : Shape := ⟨2, ![8192, 64]⟩
abbrev S1000x4096 : Shape := ⟨2, ![1000, 4096]⟩
abbrev S8192x4096 : Shape := ⟨2, ![8192, 4096]⟩
abbrev S8192x8192 : Shape := ⟨2, ![8192, 8192]⟩
abbrev S1024x4096 : Shape := ⟨2, ![1024, 4096]⟩
abbrev S512x64 : Shape := ⟨2, ![512, 64]⟩
abbrev S1024x512 : Shape := ⟨2, ![1024, 512]⟩
abbrev S512x64x1 : Shape := ⟨3, ![512, 64, 1]⟩
abbrev S512x1x64 : Shape := ⟨3, ![512, 1, 64]⟩
abbrev S512x64x64 : Shape := ⟨3, ![512, 64, 64]⟩
abbrev S512x4096 : Shape := ⟨2, ![512, 4096]⟩

abbrev nBuf : Space → Nat
  | .hbm => 52
  | .vmem => 6
  | .smem => 0
  | _ => 0

abbrev bufTy : (tb : Table) → Fin (tcTables nBuf tb) → BufTy
  | .hbm, ⟨0, _⟩ => ⟨S8192x3, .i32⟩
  | .hbm, ⟨1, _⟩ => ⟨S1000000x64, .f32⟩
  | .hbm, ⟨2, _⟩ => ⟨S1000x64, .f32⟩
  | .hbm, ⟨3, _⟩ => ⟨S1000x64x64, .f32⟩
  | .hbm, ⟨4, _⟩ => ⟨S8192x1, .i32⟩
  | .hbm, ⟨5, _⟩ => ⟨S8192, .i32⟩
  | .hbm, ⟨6, _⟩ => ⟨S8192x1, .i32⟩
  | .hbm, ⟨7, _⟩ => ⟨S8192, .i32⟩
  | .hbm, ⟨8, _⟩ => ⟨S8192x1, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192x64, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x64, .f32⟩
  | .hbm, ⟨28, _⟩ => ⟨S8192x64, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S1000x64x64, .bf16⟩
  | .hbm, ⟨41, _⟩ => ⟨S1000x4096, .bf16⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S8192x1, .i32⟩
  | .hbm, ⟨50, _⟩ => ⟨S8192x4096, .bf16⟩
  | .hbm, ⟨51, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S512x64, .f32⟩
  | .local _ .vmem, ⟨3, _⟩ => ⟨S512x64, .f32⟩
  | .local _ .vmem, ⟨4, _⟩ => ⟨S1024x512, .f32⟩
  | .local _ .vmem, ⟨5, _⟩ => ⟨S1024x512, .f32⟩
  | _, _ => ⟨S8192x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S8192x3_S8192x1_0_0 : S8192x3.Slices ![0, 0] S8192x1
  shapeCasts_S8192x1_S8192 : S8192x1.ShapeCasts S8192
  slices_S8192x3_S8192x1_0_1 : S8192x3.Slices ![0, 1] S8192x1
  slices_S8192x3_S8192x1_0_2 : S8192x3.Slices ![0, 2] S8192x1
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  shapeCasts_S1000x64x64_S1000x4096 : S1000x64x64.ShapeCasts S1000x4096
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S512x64_S512x64x1 : S512x64.ShapeCasts S512x64x1
  shapeCasts_S512x64_S512x1x64 : S512x64.ShapeCasts S512x1x64
  broadcasts_S512x64x1_S512x64x64 : S512x64x1.Broadcasts S512x64x64
  broadcasts_S512x1x64_S512x64x64 : S512x1x64.Broadcasts S512x64x64
  shapeCasts_S512x64x64_S512x4096 : S512x64x64.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x512_S1024x512_0_0 : ∀ a, (![0, 0] : Fin 2 → Nat) a + S1024x512.size a ≤ S1024x512.size a
  h_S1024x512 : 0 < S1024x512.numel
  gather_S1000000x64_S8192x1_S8192x64_1_0_n_n_0_1_164_wf : GatherDims.WF S1000000x64 S8192x1 S8192x64 [1] [0] [] [0] [] 1 ![1, 64]
  gather_S1000x64_S8192x1_S8192x64_1_0_n_n_0_1_164_wf : GatherDims.WF S1000x64 S8192x1 S8192x64 [1] [0] [] [0] [] 1 ![1, 64]
  gather_S1000x4096_S8192x1_S8192x4096_1_0_n_n_0_1_14096_wf : GatherDims.WF S1000x4096 S8192x1 S8192x4096 [1] [0] [] [0] [] 1 ![1, 4096]
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S8192x64.size a
  hwx0_1 : ∀ i : grid0.Coords, EltTy.bits .f32 = 32 ∨ (Rect.block (s := S8192x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x8192.size a
  hwx0_2 : ∀ i : grid0.Coords, EltTy.bits .f32 = 32 ∨ (Rect.block (s := S8192x8192) S1024x512.size (cc0_transform_2 i) (hinb0_2 i)).WholeWords (EltTy.packing .f32)

variable [Facts₀]

def gather_S1000000x64_S8192x1_S8192x64_1_0_n_n_0_1_164 : GatherDims S1000000x64 S8192x1 S8192x64 where
  offsetDims := [1]
  collapsedSliceDims := [0]
  operandBatchingDims := []
  startIndicesBatchingDims := []
  startIndexMap := [0]
  indexVectorDim := 1
  sliceSizes := ![1, 64]
  wf := gather_S1000000x64_S8192x1_S8192x64_1_0_n_n_0_1_164_wf
def gather_S1000x64_S8192x1_S8192x64_1_0_n_n_0_1_164 : GatherDims S1000x64 S8192x1 S8192x64 where
  offsetDims := [1]
  collapsedSliceDims := [0]
  operandBatchingDims := []
  startIndicesBatchingDims := []
  startIndexMap := [0]
  indexVectorDim := 1
  sliceSizes := ![1, 64]
  wf := gather_S1000x64_S8192x1_S8192x64_1_0_n_n_0_1_164_wf
def gather_S1000x4096_S8192x1_S8192x4096_1_0_n_n_0_1_14096 : GatherDims S1000x4096 S8192x1 S8192x4096 where
  offsetDims := [1]
  collapsedSliceDims := [0]
  operandBatchingDims := []
  startIndicesBatchingDims := []
  startIndexMap := [0]
  indexVectorDim := 1
  sliceSizes := ![1, 4096]
  wf := gather_S1000x4096_S8192x1_S8192x4096_1_0_n_n_0_1_14096_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v38) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x3 : Shape := ⟨2, ![8192, 3]⟩
abbrev S1000000x64 : Shape := ⟨2, ![1000000, 64]⟩
abbrev S1000x64 : Shape := ⟨2, ![1000, 64]⟩
abbrev S1000x64x64 : Shape := ⟨3, ![1000, 64, 64]⟩
abbrev S8192x1 : Shape := ⟨2, ![8192, 1]⟩
abbrev S8192 : Shape := ⟨1, ![8192]⟩
abbrev S_ : Shape := ⟨0, ![]⟩
abbrev S8192x64 : Shape := ⟨2, ![8192, 64]⟩
abbrev S8192x64x64 : Shape := ⟨3, ![8192, 64, 64]⟩
abbrev S8192x64x1 : Shape := ⟨3, ![8192, 64, 1]⟩
abbrev S8192x1x64 : Shape := ⟨3, ![8192, 1, 64]⟩
abbrev S8192x4096 : Shape := ⟨2, ![8192, 4096]⟩
abbrev S4096x8192 : Shape := ⟨2, ![4096, 8192]⟩
abbrev S8192x8192 : Shape := ⟨2, ![8192, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x3, .i32⟩
  | .hbm, ⟨1, _⟩ => ⟨S1000000x64, .f32⟩
  | .hbm, ⟨2, _⟩ => ⟨S1000x64, .f32⟩
  | .hbm, ⟨3, _⟩ => ⟨S1000x64x64, .f32⟩
  | .hbm, ⟨4, _⟩ => ⟨S8192x1, .i32⟩
  | .hbm, ⟨5, _⟩ => ⟨S8192, .i32⟩
  | .hbm, ⟨6, _⟩ => ⟨S8192x1, .i32⟩
  | .hbm, ⟨7, _⟩ => ⟨S8192, .i32⟩
  | .hbm, ⟨8, _⟩ => ⟨S8192x1, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192x64, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x64, .f32⟩
  | .hbm, ⟨28, _⟩ => ⟨S8192x64, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S8192x64x64, .f32⟩
  | .hbm, ⟨49, _⟩ => ⟨S8192x64x1, .f32⟩
  | .hbm, ⟨50, _⟩ => ⟨S8192x1x64, .f32⟩
  | .hbm, ⟨51, _⟩ => ⟨S8192x64x64, .f32⟩
  | .hbm, ⟨52, _⟩ => ⟨S8192x64x64, .f32⟩
  | .hbm, ⟨53, _⟩ => ⟨S8192x64x64, .f32⟩
  | .hbm, ⟨54, _⟩ => ⟨S8192x4096, .f32⟩
  | .hbm, ⟨55, _⟩ => ⟨S8192x4096, .f32⟩
  | .hbm, ⟨56, _⟩ => ⟨S4096x8192, .f32⟩
  | .hbm, ⟨57, _⟩ => ⟨S8192x8192, .f32⟩
  | _, _ => ⟨S8192x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]

class Facts₀ : Prop where
  slices_S8192x3_S8192x1_0_0 : S8192x3.Slices ![0, 0] S8192x1
  shapeCasts_S8192x1_S8192 : S8192x1.ShapeCasts S8192
  slices_S8192x3_S8192x1_0_1 : S8192x3.Slices ![0, 1] S8192x1
  slices_S8192x3_S8192x1_0_2 : S8192x3.Slices ![0, 2] S8192x1
  bcast_S_S8192 : S_.BroadcastsInDim S8192 (![] : Fin 0 → Fin S8192.rank)
  bcast_S8192_S8192x1_0 : S8192.BroadcastsInDim S8192x1 (![0] : Fin 1 → Fin S8192x1.rank)
  bcast_S8192x64_S8192x64x1_0_1 : S8192x64.BroadcastsInDim S8192x64x1 (![0, 1] : Fin 2 → Fin S8192x64x1.rank)
  bcast_S8192x64_S8192x1x64_0_2 : S8192x64.BroadcastsInDim S8192x1x64 (![0, 2] : Fin 2 → Fin S8192x1x64.rank)
  bcast_S8192x64x1_S8192x64x64_0_1_2 : S8192x64x1.BroadcastsInDim S8192x64x64 (![0, 1, 2] : Fin 3 → Fin S8192x64x64.rank)
  bcast_S8192x1x64_S8192x64x64_0_1_2 : S8192x1x64.BroadcastsInDim S8192x64x64 (![0, 1, 2] : Fin 3 → Fin S8192x64x64.rank)
  shapeCasts_S8192x64x64_S8192x4096 : S8192x64x64.ShapeCasts S8192x4096
  transposes_S8192x4096_S4096x8192_1_0 : S8192x4096.Transposes [1, 0] S4096x8192
  gather_S1000000x64_S8192x1_S8192x64_1_0_n_n_0_1_164_wf : GatherDims.WF S1000000x64 S8192x1 S8192x64 [1] [0] [] [0] [] 1 ![1, 64]
  gather_S1000x64_S8192x1_S8192x64_1_0_n_n_0_1_164_wf : GatherDims.WF S1000x64 S8192x1 S8192x64 [1] [0] [] [0] [] 1 ![1, 64]
  gather_S1000x64x64_S8192x1_S8192x64x64_12_0_n_n_0_1_16464_wf : GatherDims.WF S1000x64x64 S8192x1 S8192x64x64 [1, 2] [0] [] [0] [] 1 ![1, 64, 64]
  dot_S8192x4096_S4096x8192_S8192x8192_1_0_0_1_n_n_wf : DotDims.WF S8192x4096 S4096x8192 S8192x8192 [1] [0] [0] [1] [] []

variable [Facts₀]

def gather_S1000000x64_S8192x1_S8192x64_1_0_n_n_0_1_164 : GatherDims S1000000x64 S8192x1 S8192x64 where
  offsetDims := [1]
  collapsedSliceDims := [0]
  operandBatchingDims := []
  startIndicesBatchingDims := []
  startIndexMap := [0]
  indexVectorDim := 1
  sliceSizes := ![1, 64]
  wf := gather_S1000000x64_S8192x1_S8192x64_1_0_n_n_0_1_164_wf
def gather_S1000x64_S8192x1_S8192x64_1_0_n_n_0_1_164 : GatherDims S1000x64 S8192x1 S8192x64 where
  offsetDims := [1]
  collapsedSliceDims := [0]
  operandBatchingDims := []
  startIndicesBatchingDims := []
  startIndexMap := [0]
  indexVectorDim := 1
  sliceSizes := ![1, 64]
  wf := gather_S1000x64_S8192x1_S8192x64_1_0_n_n_0_1_164_wf
def gather_S1000x64x64_S8192x1_S8192x64x64_12_0_n_n_0_1_16464 : GatherDims S1000x64x64 S8192x1 S8192x64x64 where
  offsetDims := [1, 2]
  collapsedSliceDims := [0]
  operandBatchingDims := []
  startIndicesBatchingDims := []
  startIndexMap := [0]
  indexVectorDim := 1
  sliceSizes := ![1, 64, 64]
  wf := gather_S1000x64x64_S8192x1_S8192x64x64_12_0_n_n_0_1_16464_wf
def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.LibRowsDot.lean ====
/-
  Two matrices contracted along their rows' common axis, read at an index, at the ideal instance.

  For a rank-2 contraction [a, K] · [b, K] → [a, b] (the left operand's axis 1 against the right operand's axis 1, no
  batch axis: the product of the left matrix with the transpose of the right), the accumulate-into-zero matrix product
  and the host's dot_general are both, at the result index (p, q), the sum over k < K of lhs (p, k) · rhs (q, k): the
  contracted shape has one axis of extent K, so the sum over its indices is a sum over Fin K, and the operand indices
  the contraction names at (p, q) and k are (p, k) and (q, k). The operands may be of any float formats (on extended
  reals a change of format is the identity). The four coordinate facts about a given dimension record (hl0, hl1, hr0,
  hr1) are taken as hypotheses: for a literal record each is a computation.
-/
import Idealize.ShloMosaic.PureOps.Ideal.Laws
import Idealize.ShloMosaic.Lib.ValueIdx

noncomputable section

namespace Cert.Lib.RowsDot

open Idealize.ShloMosaic Idealize.ShloMosaic.ValueIdx

variable {a K b : Nat} (D : DotDims (⟨2, ![a, K]⟩ : Shape) (⟨2, ![b, K]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (i 1).val)
  (hr1 : ∀ (i : (⟨2, ![a, b]⟩ : Shape).Idx) (q : D.contr.Idx), (D.rhsIdx i q 1).val = (q ⟨0, by omega⟩).val)

include hr hs hl0 hl1 hr0 hr1

/-- The sum over the contracted shape's indices of the products of the operands at the contraction's indices is the
    sum over k < K of lhs (p, k) · rhs (q, k). -/
theorem sum_contr (lhs : (⟨2, ![a, K]⟩ : Shape).Idx → EReal) (rhs : (⟨2, ![b, K]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 q k := funext fun ax => Fin.ext (by
    match ax with
    | ⟨0, _⟩ => exact hr0 _ _
    | ⟨1, _⟩ => exact (hr1 _ _).trans hk)
  rw [el, er]

/-- The matrix product accumulated into the zero splat, at (p, q), for operands of any float formats. -/
theorem matmul_zero_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    matmul D prec lhs rhs (constant (⟨2, ![a, b]⟩ : Shape) .f32 0x00000000#32) (ix2 p q) = ∑ k : Fin K, lhs (ix2 p k) * rhs (ix2 q k) :=
  (Ideal.matmul_constant_zero_apply D prec lhs rhs (ix2 p q)).trans
    (sum_contr D hr hs hl0 hl1 hr0 hr1 (fun i => lhs i) (fun i => rhs i) p q)

/-- The host's dot_general, at (p, q), for operands of any float formats. -/
theorem dotGeneral_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    Host.dotGeneral D prec lhs rhs (ix2 p q) = ∑ k : Fin K, lhs (ix2 p k) * rhs (ix2 q k) :=
  (Ideal.dotGeneral_apply D prec .single lhs rhs (ix2 p q)).trans
    (sum_contr D hr hs hl0 hl1 hr0 hr1 (fun i => lhs i) (fun i => rhs i) p q)

end Cert.Lib.RowsDot

end
-- ==== Proof.Spec.lean ====
/-
  The quadratic form this kernel computes, as one function of two arrays.

  With `w` the per-sample relation matrices flattened row-major to rows of 4096 = 64 · 64 entries and `e` the
  per-sample error vectors of 64 entries, entry (i, j) of the result is the quadratic form of sample j's error vector in
  sample i's matrix, written as a single sum over the flattened matrix position k:

      quad w e (i, j) = Σ_{k < 4096} w (i, k) · (e (j, k / 64) · e (j, k % 64)).

  Position k of a flattened 64 × 64 matrix is entry (k / 64, k % 64): `hi k` and `lo k`.
-/
import Idealize.ShloMosaic.PureOps.Ideal
import Idealize.ShloMosaic.Lib.ValueIdx

noncomputable section

namespace Cert.QuadForm

open Idealize.ShloMosaic Idealize.ShloMosaic.ValueIdx

/-- The row of position `k` in a 64 × 64 matrix stored row-major. -/
def hi (k : Fin 4096) : Fin 64 := ⟨k.val / 64, by omega⟩
/-- The column of position `k` in a 64 × 64 matrix stored row-major. -/
def lo (k : Fin 4096) : Fin 64 := ⟨k.val % 64, by omega⟩

theorem hi_val (k : Fin 4096) : (hi k).val = k.val / 64 := rfl
theorem lo_val (k : Fin 4096) : (lo k).val = k.val % 64 := rfl

/-- Entry (p, q): sample q's error vector through sample p's flattened matrix. -/
def quadAt (w : (⟨2, ![8192, 4096]⟩ : Shape).Idx → EReal) (e : (⟨2, ![8192, 64]⟩ : Shape).Idx → EReal) (p q : Fin 8192) : EReal :=
  ∑ k : Fin 4096, w (ix2 p k) * (e (ix2 q (hi k)) * e (ix2 q (lo k)))

/-- The whole result array. -/
def quad (w : (⟨2, ![8192, 4096]⟩ : Shape).Idx → EReal) (e : (⟨2, ![8192, 64]⟩ : Shape).Idx → EReal) :
    (⟨2, ![8192, 8192]⟩ : Shape).Idx → EReal :=
  fun i => quadAt w e ⟨(i 0).val, idx2_lt0 i⟩ ⟨(i 1).val, idx2_lt1 i⟩

theorem quad_apply (w : (⟨2, ![8192, 4096]⟩ : Shape).Idx → EReal) (e : (⟨2, ![8192, 64]⟩ : Shape).Idx → EReal) (p q : Fin 8192) :
    quad w e (ix2 p q) = quadAt w e p q := rfl

end Cert.QuadForm

end
-- ==== Proof.Payload.lean ====
/-
  The kernel body's stored value, read at an index, at the ideal instance.

  The body loads a block `e` of 512 error rows and a block `w` of 1024 flattened matrices, forms for every error row
  its outer product with itself, flattens it row-major to 4096 entries — entry k of row q is e (q, k / 64) · e (q, k % 64) —
  and contracts the two blocks along their common axis of 4096 into a zero accumulator. The narrowing of the error rows
  to a shorter float format is the identity on extended reals. So entry (p, q) of the stored block is
  Σ_{k < 4096} w (p, k) · (e (q, k / 64) · e (q, k % 64)).
-/
import proofs.«179094_j7653631721898_2_alg».proof.Proof.Gen.KernelIdeal.Skeleton
import proofs.«179094_j7653631721898_2_alg».proof.Proof.LibRowsDot
import proofs.«179094_j7653631721898_2_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.QuadForm

/-! ## The contraction's dimension record: which operand entries result entry `i` and contraction index `q` name -/

theorem dot_lhs0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl

theorem dot_lhs1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q

theorem dot_rhs0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl

theorem dot_rhs1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-! ## The flattened outer product of each row with itself -/

/-- A row vector block recast with a trailing unit axis, read at (q, a, 0), is the block at (q, a). -/
theorem col_cast_apply (e : FVec Ideal S512x64 .bf16) (q : Fin 512) (a : Fin 64) :
    shapeCast S512x64x1 e shapeCasts_S512x64_S512x64x1 (ix3 q a (0 : Fin 1)) = e (ix2 q a) :=
  shapeCast_apply e shapeCasts_S512x64_S512x64x1 (ix3 q a (0 : Fin 1)) (ix2 q a) (by
    rewrite [Shape.rowMajor_val_two, Shape.rowMajor_val_three]
    show q.val * 64 + a.val = (q.val * 64 + a.val) * 1 + 0; omega)

/-- The same block recast with a unit axis in the middle, read at (q, 0, b), is the block at (q, b). -/
theorem row_cast_apply (e : FVec Ideal S512x64 .bf16) (q : Fin 512) (b : Fin 64) :
    shapeCast S512x1x64 e shapeCasts_S512x64_S512x1x64 (ix3 q (0 : Fin 1) b) = e (ix2 q b) :=
  shapeCast_apply e shapeCasts_S512x64_S512x1x64 (ix3 q (0 : Fin 1) b) (ix2 q b) (by
    rewrite [Shape.rowMajor_val_two, Shape.rowMajor_val_three]
    show q.val * 64 + b.val = (q.val * 1 + 0) * 64 + b.val; omega)

/-- The column form broadcast along the last axis, read at (q, a, b), is the block at (q, a). -/
theorem col_bcast_apply (e : FVec Ideal S512x64 .bf16) (q : Fin 512) (a b : Fin 64) :
    broadcastTo S512x64x64 (shapeCast S512x64x1 e shapeCasts_S512x64_S512x64x1) broadcasts_S512x64x1_S512x64x64 (ix3 q a b)
      = e (ix2 q a) :=
  (broadcastTo_apply _ broadcasts_S512x64x1_S512x64x64 (ix3 q a b) (ix3 q a (0 : Fin 1)) (fun ax => match ax with
    | ⟨0, _⟩ => by show q.val = if (512 : Nat) = 1 then 0 else q.val; rw [if_neg (by decide)]
    | ⟨1, _⟩ => by show a.val = if (64 : Nat) = 1 then 0 else a.val; rw [if_neg (by decide)]
    | ⟨2, _⟩ => by show 0 = if (1 : Nat) = 1 then 0 else b.val; rw [if_pos rfl])).trans (col_cast_apply e q a)

/-- The row form broadcast along the middle axis, read at (q, a, b), is the block at (q, b). -/
theorem row_bcast_apply (e : FVec Ideal S512x64 .bf16) (q : Fin 512) (a b : Fin 64) :
    broadcastTo S512x64x64 (shapeCast S512x1x64 e shapeCasts_S512x64_S512x1x64) broadcasts_S512x1x64_S512x64x64 (ix3 q a b)
      = e (ix2 q b) :=
  (broadcastTo_apply _ broadcasts_S512x1x64_S512x64x64 (ix3 q a b) (ix3 q (0 : Fin 1) b) (fun ax => match ax with
    | ⟨0, _⟩ => by show q.val = if (512 : Nat) = 1 then 0 else q.val; rw [if_neg (by decide)]
    | ⟨1, _⟩ => by show 0 = if (1 : Nat) = 1 then 0 else a.val; rw [if_pos rfl]
    | ⟨2, _⟩ => by show b.val = if (64 : Nat) = 1 then 0 else b.val; rw [if_neg (by decide)])).trans (row_cast_apply e q b)

/-- Entry k of row q of the flattened outer products is e (q, k / 64) · e (q, k % 64). -/
theorem outer_flat_apply (e : FVec Ideal S512x64 .bf16) (q : Fin 512) (k : Fin 4096) :
    shapeCast S512x4096
        (mulf (broadcastTo S512x64x64 (shapeCast S512x64x1 e shapeCasts_S512x64_S512x64x1) broadcasts_S512x64x1_S512x64x64)
          (broadcastTo S512x64x64 (shapeCast S512x1x64 e shapeCasts_S512x64_S512x1x64) broadcasts_S512x1x64_S512x64x64))
        shapeCasts_S512x64x64_S512x4096 (ix2 q k)
      = e (ix2 q (hi k)) * e (ix2 q (lo k)) := by
  refine (shapeCast_apply _ shapeCasts_S512x64x64_S512x4096 (ix2 q k) (ix3 q (hi k) (lo k)) (by
    rewrite [Shape.rowMajor_val_three, Shape.rowMajor_val_two]
    show (q.val * 64 + k.val / 64) * 64 + k.val % 64 = q.val * 4096 + k.val; omega)).trans ?_
  rw [mulf_apply, col_bcast_apply, row_bcast_apply]

/-! ## The stored value -/

/-- Entry (p, q) of the block the body stores. -/
theorem pay_apply (e : Vec Ideal S512x64 .f32) (w : Vec Ideal S1024x4096 .bf16) (p : Fin 1024) (q : Fin 512) :
    k0_pay1 (F := Ideal) e w (ix2 p q) = ∑ k : Fin 4096, w (ix2 p k) * (e (ix2 q (hi k)) * e (ix2 q (lo k))) := by
  unfold k0_pay1
  refine (Cert.Lib.RowsDot.matmul_zero_apply dot_S1024x4096_S512x4096_S1024x512_1_1_0_0_n_n rfl rfl
    dot_lhs0 dot_lhs1 dot_rhs0 dot_rhs1 none _ _ p q).trans ?_
  refine Finset.sum_congr rfl fun k _ => ?_
  rw [shapeCast_self]
  refine congrArg (w (ix2 p k) * ·) ?_
  refine (outer_flat_apply _ q k).trans ?_
  rw [shapeCast_self]
  rfl

end Cert.KernelIdeal.Body

end
-- ==== Proof.Blocks.lean ====
/-
  From the kernel's blocks to its result array, at the ideal instance.

  The grid has 8 × 16 points. At point (bi, bj) the body reads block bi of the flattened matrices (rows
  bi · 1024 … bi · 1024 + 1023, all 4096 columns) and block bj of the error vectors (rows bj · 512 … bj · 512 + 511, all 64
  columns), and writes block (bi, bj) of the result (rows bi · 1024 …, columns bj · 512 …). Entry (p, q) of what it
  writes is the quadratic form of local error row q in local matrix p, hence the quadratic form of error row
  bj · 512 + q in matrix bi · 1024 + p: block (bi, bj) of the one function `quad` of the two whole arrays. The 128 blocks
  tile the 8192 × 8192 result, so after the run the result array is `quad` of the arrays the region found.
-/
import proofs.«179094_j7653631721898_2_alg».proof.Proof.Gen.KernelIdeal.Value
import proofs.«179094_j7653631721898_2_alg».proof.Proof.Payload

noncomputable section

namespace Cert.KernelIdeal.Blocks

open Cert.KernelIdeal Cert.KernelIdeal.Gen Idealize.ShloMosaic Idealize.ShloMosaic.TcCoe Idealize.SL.Sem
open Idealize.ShloMosaic.ValueIdx Cert.QuadForm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One block of the stored value is one block of the quadratic form -/

/-- If `w` is rows bi · 1024 … of `W` and `e` is rows bj · 512 … of `E`, then the body's stored value at a local index is
    `quad W E` at the index shifted by (bi · 1024, bj · 512). -/
theorem pay_block (e : Vec Ideal S512x64 .f32) (w : Vec Ideal S1024x4096 .bf16)
    (W : (⟨2, ![8192, 4096]⟩ : Shape).Idx → EReal) (E : (⟨2, ![8192, 64]⟩ : Shape).Idx → EReal)
    (bi bj : Nat) (hbi : bi ≤ 7) (hbj : bj ≤ 15)
    (hw : ∀ (p : Fin 1024) (k : Fin 4096), w (ix2 p k) = W (ix2 (⟨bi * 1024 + p.val, by omega⟩ : Fin 8192) k))
    (he : ∀ (q : Fin 512) (a : Fin 64), e (ix2 q a) = E (ix2 (⟨bj * 512 + q.val, by omega⟩ : Fin 8192) a))
    (j : S1024x512.Idx) (i : S8192x8192.Idx)
    (hi0 : (i 0).val = bi * 1024 + (j 0).val) (hi1 : (i 1).val = bj * 512 + (j 1).val) :
    k0_pay1 (F := Ideal) e w j = quad W E i := by
  have hbp : ∀ p : Fin 1024, bi * 1024 + p.val < 8192 := fun p => by omega
  have hbq : ∀ q : Fin 512, bj * 512 + q.val < 8192 := fun q => by omega
  obtain ⟨p, q, rfl⟩ : ∃ (p : Fin 1024) (q : Fin 512), j = ix2 p q := ⟨j 0, j 1, eq_ix2 j⟩
  obtain ⟨P, Q, rfl⟩ : ∃ (P : Fin 8192) (Q : Fin 8192), i = ix2 P Q := ⟨i 0, i 1, eq_ix2 i⟩
  obtain rfl : P = ⟨bi * 1024 + p.val, hbp p⟩ := Fin.ext hi0
  obtain rfl : Q = ⟨bj * 512 + q.val, hbq q⟩ := Fin.ext hi1
  rw [Cert.KernelIdeal.Body.pay_apply, quad_apply]
  unfold quadAt
  refine Finset.sum_congr rfl fun k _ => ?_
  rw [hw, he, he]

/-! ## The index maps, decided over the grid -/

/-- The matrices' window moves with the result's first block index and the error vectors' with its second; both stay
    at block column 0; the result's block indices stay in their ranges. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 15 :=
  (by decide +kernel : ∀ t : Fin grid0.N, _)

/-- Every block of the result is some point's. -/
theorem idx_onto : ∀ (q0 : Fin 8) (q1 : Fin 16), ∃ t : Fin cfg0.N, win0_2.index t = ![q0.val, q1.val] :=
  (by decide +kernel : ∀ (q0 : Fin 8) (q1 : Fin 16), ∃ t : Fin grid0.N, win0_2.index t = ![q0.val, q1.val])

/-! ## The input blocks at a point -/

/-- The matrices' block at point `t`: rows (first block index) · 1024 … of the array the region found. -/
theorem wblk_apply (c : Dev nD) (t : Fin cfg0.N) (p : Fin 1024) (k : Fin 4096) (P : Fin 8192)
    (hP : P.val = win0_2.index t (0 : Fin 2) * 1024 + p.val) :
    (iblk m c 0 t : Vec Ideal S1024x4096 .bf16) (ix2 p k) = (V m c main_v38 : S8192x4096.Idx → EReal) (ix2 P k) := by
  obtain ⟨e0, e1, e2, e3, e4, e5⟩ := idx_facts t
  show V m c main_v38 (((cfg0.win 0).blk t).view.emb (ix2 p k)) = V m c main_v38 (ix2 P k)
  refine congrArg (V m c main_v38) (funext fun a => Fin.ext ?_)
  match a with
  | ⟨0, _⟩ => show win0_0.index t (0 : Fin 2) * 1024 + 1 * p.val = P.val; omega
  | ⟨1, _⟩ => show win0_0.index t (1 : Fin 2) * 4096 + 1 * k.val = k.val; omega

/-- The error vectors' block at point `t`: rows (second block index) · 512 … of the array the region found. -/
theorem eblk_apply (c : Dev nD) (t : Fin cfg0.N) (q : Fin 512) (a : Fin 64) (Q : Fin 8192)
    (hQ : Q.val = win0_2.index t (1 : Fin 2) * 512 + q.val) :
    (iblk m c 1 t : Vec Ideal S512x64 .f32) (ix2 q a) = (V m c main_v29 : S8192x64.Idx → EReal) (ix2 Q a) := by
  obtain ⟨e0, e1, e2, e3, e4, e5⟩ := idx_facts t
  show V m c main_v29 (((cfg0.win 1).blk t).view.emb (ix2 q a)) = V m c main_v29 (ix2 Q a)
  refine congrArg (V m c main_v29) (funext fun ax => Fin.ext ?_)
  match ax with
  | ⟨0, _⟩ => show win0_1.index t (0 : Fin 2) * 512 + 1 * q.val = Q.val; omega
  | ⟨1, _⟩ => show win0_1.index t (1 : Fin 2) * 64 + 1 * a.val = a.val; omega

/-! ## What a point writes back, the cover, the array -/

/-- What point `t` writes back is block `t` of the quadratic form of the two arrays the region found. -/
theorem flushed_eq (c : Dev nD) (t : Fin cfg0.N) :
    (dats m 0 c).flushed 2 t
      = ((cfg0.win 2).blk t).view.read (Elt Ideal) (quad (V m c main_v38) (V m c main_v29)) := by
  rw [Cert.KernelIdeal.Value.flushed2]
  unfold out0_2
  rw [View.canon_unit_zero hz]
  simp only [View.ld_unit_zero (S := S512x64) hz, View.ld_unit_zero (S := S1024x4096) hz]
  obtain ⟨e0, e1, e2, e3, e4, e5⟩ := idx_facts t
  funext j
  show k0_pay1 (F := Ideal) (iblk m c 1 t) (iblk m c 0 t) j
    = quad (V m c main_v38) (V m c main_v29) (((cfg0.win 2).blk t).view.emb j)
  refine pay_block (iblk m c 1 t) (iblk m c 0 t) (V m c main_v38) (V m c main_v29)
    (win0_2.index t (0 : Fin 2)) (win0_2.index t (1 : Fin 2)) e4 e5
    (fun p k => wblk_apply m c t p k _ rfl) (fun q a => eblk_apply m c t q a _ rfl) j (((cfg0.win 2).blk t).view.emb j) ?_ ?_
  · show win0_2.index t (0 : Fin 2) * 1024 + 1 * (j 0).val = win0_2.index t (0 : Fin 2) * 1024 + (j 0).val; omega
  · show win0_2.index t (1 : Fin 2) * 512 + 1 * (j 1).val = win0_2.index t (1 : Fin 2) * 512 + (j 1).val; omega

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v39).slice (win0_2.rect t)).set ↔ _
  rw [View.set_slice_whole, Rect.mem_set_unit]
  exact Iff.rfl

/-- Every index of the result lies in the block of the point whose block indices are its coordinates' quotients. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The result array after the run. -/
theorem final (c : Dev nD) : (dats m 0 c).arrAt 2 cfg0.N = quad (V m c main_v38) (V m c main_v29) :=
  (dats m 0 c).arrAt_eq_of_cover 2 (quad (V m c main_v38) (V m c main_v29)) (fun t _ => flushed_eq m c t) cover

/-- The kernel's run with the result array named: the quadratic form of the two arrays the region found; the arguments
    unchanged. -/
theorem run : θ_run defs (onTc (τ := τ) (main (F := Ideal))) ⟨m, fun _ => 0, ρ⟩ fun r => ∀ c : Dev nD,
      r.2.mem ((c : Thread nD τ).loc main_v39) = quad (V m c main_v38) (V m c main_v29)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Blocks

end
-- ==== Proof.LibRowGather.lean ====
/-
  A gather of whole rows, read at an index.

  What `x[idx]` lowers to for a table `x` of `N` rows and a vector of `B` row numbers held as a column `[B, 1]`: a
  gather with the row axis collapsed, the start index naming that axis only, and every other axis of the table taken
  whole. Result row `p` is the table's row `row idx p`: the `p`-th start index read as a signed integer and clamped into
  `[0, N - 1]` (a gather clamps every start index so that the slice fits), and inside the row nothing moves. Stated for
  tables of rank 2 (`[N, C]`, result `[B, C]`) and of rank 3 (`[N, C, D]`, result `[B, C, D]`), for entries of any type.
  The dimension records are given as structure literals over the shapes' extents, so a program's printed record of the
  same fields is one of them by unfolding.
-/
import Idealize.ShloMosaic.PureOps.Ideal
import Idealize.ShloMosaic.Lib.ValueIdx

noncomputable section

namespace Cert.Lib.RowGather

open Idealize.ShloMosaic Idealize.ShloMosaic.ValueIdx

variable {α : Type}

/-- The table row that start index `p` names: the word read signed, clamped into `[0, N - 1]`. -/
def row {N B w : Nat} (hN : 0 < N) (idx : IVec (⟨2, ![B, 1]⟩ : Shape) w) (p : Fin B) : Fin N :=
  ⟨min (idx (ix2 p (0 : Fin 1))).toInt.toNat (N - 1), by omega⟩

/-! ## A table of rank 2 -/

/-- The dimension numbers of a row gather from `[N, C]` at `[B, 1]` into `[B, C]`. -/
abbrev rowDims2 (N B C : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Entry `(p, q)` of the gathered rows is entry `q` of the table's row `row idx p`. -/
theorem gather_rows2_apply {N B C w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (p : Fin B) (q : Fin C) :
    Host.gather (rowDims2 N B C wf) x idx (ix2 p q) = x (ix2 (row hN idx p) q) := by
  unfold Host.gather
  congr 1
  funext a
  refine Fin.ext ?_
  match a with
  | ⟨0, _⟩ =>
    show (rowDims2 N B C wf).start (ix2 p q) idx 0 + (rowDims2 N B C wf).batchCoord (ix2 p q) 0
      + (rowDims2 N B C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N B C wf).startIndexMap from List.mem_singleton.mpr rfl)]
    have hsi : (rowDims2 N B C wf).siIdx (ix2 p q) ⟨List.idxOf (0 : Fin 2) (rowDims2 N B C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims2 N B C wf).start (ix2 p q) idx 1 + (rowDims2 N B C wf).batchCoord (ix2 p q) 1
      + (rowDims2 N B C wf).offCoord (ix2 p q) 1 = q.val
    rw [GatherDims.batchCoord_eq_zero _ _ _ List.not_mem_nil]
    unfold GatherDims.start
    rw [dif_neg (show ¬ (1 : Fin 2) ∈ (rowDims2 N B C wf).startIndexMap from
      fun h => absurd (List.mem_singleton.mp h) (show ¬ ((1 : Fin 2) = 0) by decide))]
    unfold GatherDims.offCoord
    rw [dif_pos (show (1 : Fin 2) ∈ (rowDims2 N B C wf).sKept from (GatherDims.mem_sKept _ _).mpr
      ⟨fun h => absurd (List.mem_singleton.mp h) (show ¬ ((1 : Fin 2) = 0) by decide), List.not_mem_nil⟩)]
    simp only [Nat.zero_add, Nat.add_zero]
    rfl

/-! ## A table of rank 3 -/

/-- The dimension numbers of a row gather from `[N, C, D]` at `[B, 1]` into `[B, C, D]`. -/
abbrev rowDims3 (N B C D : Nat)
    (wf : GatherDims.WF ⟨3, ![N, C, D]⟩ ⟨2, ![B, 1]⟩ ⟨3, ![B, C, D]⟩ [1, 2] [0] [] [0] [] 1 ![1, C, D]) :
    GatherDims ⟨3, ![N, C, D]⟩ ⟨2, ![B, 1]⟩ ⟨3, ![B, C, D]⟩ where
  offsetDims := [1, 2]
  collapsedSliceDims := [0]
  operandBatchingDims := []
  startIndicesBatchingDims := []
  startIndexMap := [0]
  indexVectorDim := 1
  sliceSizes := ![1, C, D]
  wf := wf

/-- Entry `(p, q, r)` of the gathered rows is entry `(q, r)` of the table's row `row idx p`. -/
theorem gather_rows3_apply {N B C D w : Nat} (hN : 0 < N)
    (wf : GatherDims.WF ⟨3, ![N, C, D]⟩ ⟨2, ![B, 1]⟩ ⟨3, ![B, C, D]⟩ [1, 2] [0] [] [0] [] 1 ![1, C, D])
    (x : (⟨3, ![N, C, D]⟩ : Shape).Idx → α) (idx : IVec ⟨2, ![B, 1]⟩ w) (p : Fin B) (q : Fin C) (r : Fin D) :
    Host.gather (rowDims3 N B C D wf) x idx (ix3 p q r) = x (ix3 (row hN idx p) q r) := by
  unfold Host.gather
  congr 1
  funext a
  refine Fin.ext ?_
  match a with
  | ⟨0, _⟩ =>
    show (rowDims3 N B C D wf).start (ix3 p q r) idx 0 + (rowDims3 N B C D wf).batchCoord (ix3 p q r) 0
      + (rowDims3 N B C D wf).offCoord (ix3 p q r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowDims3 N B C D wf).startIndexMap from List.mem_singleton.mpr rfl)]
    have hsi : (rowDims3 N B C D wf).siIdx (ix3 p q r) ⟨List.idxOf (0 : Fin 3) (rowDims3 N B C D wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims3 N B C D wf).start (ix3 p q r) idx 1 + (rowDims3 N B C D wf).batchCoord (ix3 p q r) 1
      + (rowDims3 N B C D wf).offCoord (ix3 p q r) 1 = q.val
    rw [GatherDims.batchCoord_eq_zero _ _ _ List.not_mem_nil]
    unfold GatherDims.start
    rw [dif_neg (show ¬ (1 : Fin 3) ∈ (rowDims3 N B C D wf).startIndexMap from
      fun h => absurd (List.mem_singleton.mp h) (show ¬ ((1 : Fin 3) = 0) by decide))]
    unfold GatherDims.offCoord
    rw [dif_pos (show (1 : Fin 3) ∈ (rowDims3 N B C D wf).sKept from (GatherDims.mem_sKept _ _).mpr
      ⟨fun h => absurd (List.mem_singleton.mp h) (show ¬ ((1 : Fin 3) = 0) by decide), List.not_mem_nil⟩)]
    simp only [Nat.zero_add, Nat.add_zero]
    rfl
  | ⟨2, _⟩ =>
    show (rowDims3 N B C D wf).start (ix3 p q r) idx 2 + (rowDims3 N B C D wf).batchCoord (ix3 p q r) 2
      + (rowDims3 N B C D wf).offCoord (ix3 p q r) 2 = r.val
    rw [GatherDims.batchCoord_eq_zero _ _ _ List.not_mem_nil]
    unfold GatherDims.start
    rw [dif_neg (show ¬ (2 : Fin 3) ∈ (rowDims3 N B C D wf).startIndexMap from
      fun h => absurd (List.mem_singleton.mp h) (show ¬ ((2 : Fin 3) = 0) by decide))]
    unfold GatherDims.offCoord
    rw [dif_pos (show (2 : Fin 3) ∈ (rowDims3 N B C D wf).sKept from (GatherDims.mem_sKept _ _).mpr
      ⟨fun h => absurd (List.mem_singleton.mp h) (show ¬ ((2 : Fin 3) = 0) by decide), List.not_mem_nil⟩)]
    simp only [Nat.zero_add, Nat.add_zero]
    rfl

end Cert.Lib.RowGather

end
-- ==== Proof.HostSide.lean ====
/-
  What the region finds in its two operand arrays, against the reference's stages.

  Before the region the kernel's program computes, on the host, the error vectors e = |ent[head] + rel[r] − ent[tail]|
  by the very operations the reference uses, and the flattened gathered matrices by narrowing the table of relation
  matrices to a shorter float format (the identity on extended reals), flattening each 64 × 64 matrix row-major to 4096
  entries, and gathering rows by the relation numbers. The reference gathers the 64 × 64 matrices first and flattens
  afterwards. Both pick, for sample p, the same table row — the p-th relation number, a negative one wrapped once by
  the table's height, then clamped into the table — and entry k of a flattened matrix is entry (k / 64, k % 64) of
  the matrix, so the two arrays agree entry by entry.
-/
import proofs.«179094_j7653631721898_2_alg».proof.Proof.Gen.KernelIdeal.Frame
import proofs.«179094_j7653631721898_2_alg».proof.Proof.Gen.ReferenceIdeal.Read
import proofs.«179094_j7653631721898_2_alg».proof.Proof.LibRowGather
import proofs.«179094_j7653631721898_2_alg».proof.Proof.Spec
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo Cert.QuadForm Cert.Lib.RowGather

/-! ## The two gathers of the relation matrices, entry by entry -/

/-- The relation numbers as the gathers read them: the triples' middle column, a negative number wrapped once by the
    table's height 1000, as a column. (An integer stage: the same words whatever the float instance.) -/
abbrev relRows (x0 : IVec S8192x3 32) : IVec (⟨2, ![8192, 1]⟩ : Shape) 32 :=
  Cert.ReferenceIdeal.Read.val_main_v35 (F := Ideal) x0

/-- The kernel program's operand: the table narrowed and flattened, then its rows gathered. -/
def flatThenGather (x0 : IVec S8192x3 32) (x3 : FVec Ideal S1000x64x64 .f32) : FVec Ideal S8192x4096 .bf16 :=
  Host.gather gather_S1000x4096_S8192x1_S8192x4096_1_0_n_n_0_1_14096
    (shapeCast S1000x4096 (truncf .bf16 x3 bitsLt_bf16_f32) shapeCasts_S1000x64x64_S1000x4096) (relRows x0)

/-- Entry (p, k) of the kernel program's operand is entry (k / 64, k % 64) of the table's matrix for sample p. -/
theorem flatThenGather_apply (x0 : IVec S8192x3 32) (x3 : FVec Ideal S1000x64x64 .f32) (p : Fin 8192) (k : Fin 4096) :
    flatThenGather x0 x3 (ix2 p k)
      = x3 (ix3 (row (N := 1000) (by decide) (relRows x0) p) (hi k) (lo k)) := by
  unfold flatThenGather
  refine (gather_rows2_apply (N := 1000) (B := 8192) (C := 4096) (by decide)
    Facts₀.gather_S1000x4096_S8192x1_S8192x4096_1_0_n_n_0_1_14096_wf _ (relRows x0) p k).trans ?_
  refine (shapeCast_apply _ shapeCasts_S1000x64x64_S1000x4096 (ix2 (row (N := 1000) (by decide) (relRows x0) p) k)
    (ix3 (row (N := 1000) (by decide) (relRows x0) p) (hi k) (lo k)) (by
      rewrite [Shape.rowMajor_val_three, Shape.rowMajor_val_two]
      show ((row (N := 1000) (by decide) (relRows x0) p).val * 64 + k.val / 64) * 64 + k.val % 64
        = (row (N := 1000) (by decide) (relRows x0) p).val * 4096 + k.val
      omega)).trans ?_
  rfl

/-- Entry (p, k) of the reference's flattened gathered matrices is the same table entry. -/
theorem gatherThenFlat_apply (x0 : IVec S8192x3 32) (x3 : FVec Ideal S1000x64x64 .f32) (p : Fin 8192) (k : Fin 4096) :
    Cert.ReferenceIdeal.Read.val_main_v42 (F := Ideal) x0 x3 (ix2 p k)
      = x3 (ix3 (row (N := 1000) (by decide) (relRows x0) p) (hi k) (lo k)) := by
  rw [Cert.ReferenceIdeal.Read.val_main_v42_apply]
  have ei : Cert.ReferenceIdeal.Read.idx_main_v42 (ix2 p k) = ix3 p (hi k) (lo k) := funext fun a => Fin.ext (by
    match a with
    | ⟨0, _⟩ => show (p.val * 4096 + k.val) / 4096 = p.val; omega
    | ⟨1, _⟩ => show (p.val * 4096 + k.val) / 64 % 64 = k.val / 64; omega
    | ⟨2, _⟩ => show (p.val * 4096 + k.val) % 64 = k.val % 64; omega)
  rw [ei]
  unfold Cert.ReferenceIdeal.Read.val_main_v36
  exact gather_rows3_apply (N := 1000) (B := 8192) (C := 64) (D := 64) (by decide)
    Cert.ReferenceIdeal.Facts₀.gather_S1000x64x64_S8192x1_S8192x64x64_12_0_n_n_0_1_16464_wf x3 (relRows x0) p (hi k) (lo k)

/-- So the two arrays are one. -/
theorem flatThenGather_eq (x0 : IVec S8192x3 32) (x3 : FVec Ideal S1000x64x64 .f32) :
    flatThenGather x0 x3 = Cert.ReferenceIdeal.Read.val_main_v42 (F := Ideal) x0 x3 := by
  funext i
  obtain ⟨p, k, rfl⟩ : ∃ (p : Fin 8192) (k : Fin 4096), i = ix2 p k := ⟨i 0, i 1, eq_ix2 i⟩
  rw [flatThenGather_apply, gatherThenFlat_apply]

/-! ## The arrays the region finds -/

variable (m : (ℓ : Loc nD τ sig) → Buf (Elt Ideal) ℓ)

set_option maxRecDepth 8192 in
set_option maxHeartbeats 2000000 in
/-- The error vectors the region finds are the reference's error-vector stage of the same arguments: the same host
    operations, one after the other. -/
theorem err_eq (c : Dev nD) :
    (V m c main_v29 : S8192x64.Idx → EReal)
      = Cert.ReferenceIdeal.Read.val_main_v29 (F := Ideal) (m ((c : Thread nD τ).loc main_arg0))
          (m ((c : Thread nD τ).loc main_arg1)) (m ((c : Thread nD τ).loc main_arg2)) := by
  dsimp only [Gen.V, Gen.hostOps0]
  after_results_simp <;> rfl

set_option maxRecDepth 8192 in
set_option maxHeartbeats 2000000 in
/-- The flattened gathered matrices the region finds. -/
theorem wg_term (c : Dev nD) :
    (V m c main_v38 : S8192x4096.Idx → EReal)
      = flatThenGather (m ((c : Thread nD τ).loc main_arg0)) (m ((c : Thread nD τ).loc main_arg3)) := by
  dsimp only [Gen.V, Gen.hostOps0]
  after_results_simp <;> rfl

/-- They are the reference's stage of flattened gathered matrices. -/
theorem wg_eq (c : Dev nD) :
    (V m c main_v38 : S8192x4096.Idx → EReal)
      = Cert.ReferenceIdeal.Read.val_main_v42 (F := Ideal) (m ((c : Thread nD τ).loc main_arg0))
          (m ((c : Thread nD τ).loc main_arg3)) :=
  (wg_term m c).trans (flatThenGather_eq _ _)

end Cert.KernelIdeal.Host

end
-- ==== Proof.RefRead.lean ====
/-
  The reference's result is the quadratic form of its own gathered matrices and error vectors.

  The reference multiplies the flattened gathered matrices [8192, 4096] by the transpose of the flattened outer
  products [8192, 4096] of the error vectors. Entry (p, q) of that product is the sum over k < 4096 of matrix entry
  (p, k) times the transposed entry (k, q), which is entry (q, k) of the flattened outer products, which is entry
  (q, k / 64, k % 64) of the outer products: e (q, k / 64) · e (q, k % 64).
-/
import proofs.«179094_j7653631721898_2_alg».proof.Proof.Gen.ReferenceIdeal.Read
import proofs.«179094_j7653631721898_2_alg».proof.Proof.Spec

noncomputable section

namespace Cert.ReferenceIdeal.Quad

open Cert.ReferenceIdeal Cert.ReferenceIdeal.Read Idealize.ShloMosaic Idealize.ShloMosaic.ValueIdx Cert.QuadForm

/-- The reference's last stage, as a function of the stage holding the flattened gathered matrices and the stage holding
    the error vectors. -/
theorem result_eq_quad (x0 : (⟨S8192x3, .i32⟩ : BufTy).Contents (Elt Ideal)) (x1 : (⟨S1000000x64, .f32⟩ : BufTy).Contents (Elt Ideal))
    (x2 : (⟨S1000x64, .f32⟩ : BufTy).Contents (Elt Ideal)) (x3 : (⟨S1000x64x64, .f32⟩ : BufTy).Contents (Elt Ideal)) :
    val_main_v45 (F := Ideal) x0 x1 x2 x3
      = quad (val_main_v42 (F := Ideal) x0 x3) (val_main_v29 (F := Ideal) x0 x1 x2) := by
  funext i
  obtain ⟨p, q, rfl⟩ : ∃ (p : Fin 8192) (q : Fin 8192), i = ix2 p q := ⟨i 0, i 1, eq_ix2 i⟩
  rw [val_main_v45_apply, quad_apply]
  unfold quadAt
  refine Finset.sum_congr rfl fun k _ => ?_
  have el : lidx_main_v45 (ix2 p q) k = ix2 p k := funext fun a => Fin.ext (by
    match a with
    | ⟨0, _⟩ => rfl
    | ⟨1, _⟩ => rfl)
  rw [el]
  refine congrArg (val_main_v42 (F := Ideal) x0 x3 (ix2 p k) * ·) ?_
  rw [val_main_v44_apply, val_main_v43_apply, val_main_v41_apply, val_main_v39_apply, val_main_v37_apply,
    val_main_v40_apply, val_main_v38_apply]
  have e1 : idx_main_v37 (idx_main_v39 (idx_main_v43 (idx_main_v44 (ridx_main_v45 (ix2 p q) k)))) = ix2 q (hi k) :=
    funext fun a => Fin.ext (by
      match a with
      | ⟨0, _⟩ => show (q.val * 4096 + k.val) / 4096 = q.val; omega
      | ⟨1, _⟩ => show (q.val * 4096 + k.val) / 64 % 64 = k.val / 64; omega)
  have e2 : idx_main_v38 (idx_main_v40 (idx_main_v43 (idx_main_v44 (ridx_main_v45 (ix2 p q) k)))) = ix2 q (lo k) :=
    funext fun a => Fin.ext (by
      match a with
      | ⟨0, _⟩ => show (q.val * 4096 + k.val) / 4096 = q.val; omega
      | ⟨1, _⟩ => show (q.val * 4096 + k.val) % 64 = k.val % 64; omega)
  rw [e1, e2]
  rfl

end Cert.ReferenceIdeal.Quad

end
-- ==== Proof.lean ====
/-
  The kernel against its reference, over the extended reals.

  Both programs compute, for samples i and j, the quadratic form of sample j's error vector e_j = |h_j + r_j − t_j| in
  sample i's relation matrix W_i: out (i, j) = Σ_{k < 4096} W_i[k] · (e_j[k / 64] · e_j[k % 64]), the matrix flattened
  row-major. The kernel program flattens (and narrows, which is the identity on extended reals) the table of matrices
  before gathering the samples' rows and lets each grid point contract a block of 1024 matrices with the outer products
  of a block of 512 error vectors; the reference gathers, flattens, forms all outer products and multiplies by the
  transpose. The two sums run over the same index in the same order, so no law of the extended reals beyond reading
  both sides entry by entry is needed, and the precondition is not used.

  The frames are the generated frame runs (the reference's: its generated run with the result dropped); the idealization
  rewrote nothing, so that conjunct is `True`; the value claim sets the kernel's run, its result array read block by
  block as one function `quad` of the two arrays the region finds (Proof/Blocks.lean over Proof/Payload.lean), beside the
  reference's generated run, its last stage read as the same `quad` of its own stages (Proof/RefRead.lean), the stages
  identified in Proof/HostSide.lean.
-/
import proofs.«179094_j7653631721898_2_alg».proof.Defs
import proofs.«179094_j7653631721898_2_alg».proof.Proof.Gen.Kernel
import proofs.«179094_j7653631721898_2_alg».proof.Proof.Gen.Kernel.Frame
import proofs.«179094_j7653631721898_2_alg».proof.Proof.Gen.KernelIdeal
import proofs.«179094_j7653631721898_2_alg».proof.Proof.Gen.KernelIdeal.Frame
import proofs.«179094_j7653631721898_2_alg».proof.Proof.Gen.KernelIdeal.Value
import proofs.«179094_j7653631721898_2_alg».proof.Proof.Gen.ReferenceIdeal
import proofs.«179094_j7653631721898_2_alg».proof.Proof.Gen.ReferenceIdeal.Run
import proofs.«179094_j7653631721898_2_alg».proof.Proof.Gen.ReferenceIdeal.Read
import proofs.«179094_j7653631721898_2_alg».proof.Proof.Gen.Pre_finite_inputs
import proofs.«179094_j7653631721898_2_alg».proof.Proof.Blocks
import proofs.«179094_j7653631721898_2_alg».proof.Proof.HostSide
import proofs.«179094_j7653631721898_2_alg».proof.Proof.RefRead
import Idealize.ShloMosaic.Adequacy
import Idealize.ShloMosaic.Init

noncomputable section

namespace Cert.Proof

open Idealize.ShloMosaic Idealize.ShloMosaic.TcCoe Idealize.SL.Sem Cert.QuadForm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve beyond the program's own text. -/
theorem preserves : Cert.preserves_Kernel_KernelIdeal := trivial

/-- From memories agreeing on the arguments both programs end with the result array at the quadratic form of the
    flattened gathered matrices and the error vectors of those arguments. -/
theorem algebraic : Cert.algebraic_KernelIdeal_ReferenceIdeal := by
  intro m ρ m' ρ' _ hagree
  refine ⟨fun c => quad (Cert.KernelIdeal.Gen.V m c Cert.KernelIdeal.main_v38) (Cert.KernelIdeal.Gen.V m c Cert.KernelIdeal.main_v29),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.Quad.result_eq_quad,
    (hagree c).1, (hagree c).2.1, (hagree c).2.2.1, (hagree c).2.2.2]
  exact (congrArg₂ quad (Cert.KernelIdeal.Host.wg_eq m c) (Cert.KernelIdeal.Host.err_eq m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
